-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x256x64 : Shape := ⟨3, ![2, 256, 64]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S2x256x64 : S_.BroadcastsInDim S2x256x64 (![] : Fin 0 → Fin S2x256x64.rank)
  reducesTo_S2x256x64_S_d0_1_2 : S2x256x64.ReducesTo [0, 1, 2] S_
  bcast_S_S2x1600000 : S_.BroadcastsInDim S2x1600000 (![] : Fin 0 → Fin S2x1600000.rank)
  reducesTo_S2x1600000_S_d0_1 : S2x1600000.ReducesTo [0, 1] S_

variable [Facts]

def fn {F : FTy → Type} [FloatOps F] (main_arg0 : FVec F S100000x256 .f32) (main_arg1 : FVec F S2x256x64 .f32) (main_arg2 : FVec F S2x1600000 .f32) (main_arg3 : IVec S2x1600000 32) (main_arg4 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S2x256x64 .f32 := Host.absf main_arg1
  let main_cst_0 : FVec F S_ .f32 := constant S_ .f32 0x7F800000#32
  let main_v5 : FVec F S2x256x64 .f32 := broadcastInDim S2x256x64 ![] bcast_S_S2x256x64 main_cst_0
  let main_v6 : IVec S2x256x64 1 := cmpf .olt main_v4 main_v5
  let main_c_1 : IVec S_ 1 := constantI S_ 1 1#1
  let main_v7 : IVec S_ 1 := (fun x v => Host.reduce IntOp.andi x v reducesTo_S2x256x64_S_d0_1_2 h_S_) main_v6 main_c_1
  let main_v8 : IVec S_ 1 := andi main_v3 main_v7
  let main_v9 : FVec F S2x1600000 .f32 := Host.absf main_arg2
  let main_cst_2 : FVec F S_ .f32 := constant S_ .f32 0x7F800000#32
  let main_v10 : FVec F S2x1600000 .f32 := broadcastInDim S2x1600000 ![] bcast_S_S2x1600000 main_cst_2
  let main_v11 : IVec S2x1600000 1 := cmpf .olt main_v9 main_v10
  let main_c_3 : IVec S_ 1 := constantI S_ 1 1#1
  let main_v12 : IVec S_ 1 := (fun x v => Host.reduce IntOp.andi x v reducesTo_S2x1600000_S_d0_1 h_S_) main_v11 main_c_3
  let main_v13 : IVec S_ 1 := andi main_v8 main_v12
  main_v13
-- ==== Kernel.lean ====
abbrev S100000x256 : Shape := ⟨2, ![100000, 256]⟩
abbrev S2x256x64 : Shape := ⟨3, ![2, 256, 64]⟩
abbrev S2x1600000 : Shape := ⟨2, ![2, 1600000]⟩
abbrev S256x2x64 : Shape := ⟨3, ![256, 2, 64]⟩
abbrev S256x128 : Shape := ⟨2, ![256, 128]⟩
abbrev S100000x128 : Shape := ⟨2, ![100000, 128]⟩
abbrev S4000x256 : Shape := ⟨2, ![4000, 256]⟩
abbrev S4000x128 : Shape := ⟨2, ![4000, 128]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S3200000x64 : Shape := ⟨2, ![3200000, 64]⟩
abbrev S3200000 : Shape := ⟨1, ![3200000]⟩
abbrev S3200000x1 : Shape := ⟨2, ![3200000, 1]⟩

abbrev nBuf : Space → Nat
  | .hbm => 57
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x256x64, .f32⟩
  | .hbm, ⟨2, _⟩ => ⟨S2x1600000, .f32⟩
  | .hbm, ⟨3, _⟩ => ⟨S2x1600000, .i32⟩
  | .hbm, ⟨4, _⟩ => ⟨S2x1600000, .i32⟩
  | .hbm, ⟨5, _⟩ => ⟨S256x2x64, .f32⟩
  | .hbm, ⟨6, _⟩ => ⟨S256x128, .f32⟩
  | .hbm, ⟨7, _⟩ => ⟨S100000x128, .bf16⟩
  | .hbm, ⟨8, _⟩ => ⟨S100000x64, .bf16⟩
  | .hbm, ⟨9, _⟩ => ⟨S1x1600000, .f32⟩
  | .hbm, ⟨10, _⟩ => ⟨S1600000, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .bf16⟩
  | .hbm, ⟨22, _⟩ => ⟨S1600000x64, .f32⟩
  | .hbm, ⟨23, _⟩ => ⟨S1600000x1, .f32⟩
  | .hbm, ⟨24, _⟩ => ⟨S1600000x64, .f32⟩
  | .hbm, ⟨25, _⟩ => ⟨S1600000x64, .f32⟩
  | .hbm, ⟨26, _⟩ => ⟨S1x1600000, .i32⟩
  | .hbm, ⟨27, _⟩ => ⟨S1600000, .i32⟩
  | .hbm, ⟨28, _⟩ => ⟨S100000x64, .bf16⟩
  | .hbm, ⟨29, _⟩ => ⟨S1x1600000, .f32⟩
  | .hbm, ⟨30, _⟩ => ⟨S1600000, .f32⟩
  | .hbm, ⟨31, _⟩ => ⟨S1x1600000, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .bf16⟩
  | .hbm, ⟨42, _⟩ => ⟨S1600000x64, .f32⟩
  | .hbm, ⟨43, _⟩ => ⟨S1600000x1, .f32⟩
  | .hbm, ⟨44, _⟩ => ⟨S1600000x64, .f32⟩
  | .hbm, ⟨45, _⟩ => ⟨S1600000x64, .f32⟩
  | .hbm, ⟨46, _⟩ => ⟨S1x1600000, .i32⟩
  | .hbm, ⟨47, _⟩ => ⟨S1600000, .i32⟩
  | .hbm, ⟨48, _⟩ => ⟨S3200000x64, .f32⟩
  | .hbm, ⟨49, _⟩ => ⟨S3200000, .i32⟩
  | .hbm, ⟨50, _⟩ => ⟨S_, .f32⟩
  | .hbm, ⟨51, _⟩ => ⟨S100000x64, .f32⟩
  | .hbm, ⟨52, _⟩ => ⟨S3200000x1, .i32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .bf16⟩
  | .local _ .vmem, ⟨4, _⟩ => ⟨S4000x128, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call0_cst : Ref sig .tc := ⟨.hbm, 54, rfl⟩
abbrev main_call0_v0 : Ref sig .tc := ⟨.hbm, 55, rfl⟩
abbrev main_v44 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2x256x64_S256x2x64_1_0_2 : S2x256x64.Transposes [1, 0, 2] S256x2x64
  shapeCasts_S256x2x64_S256x128 : S256x2x64.ShapeCasts S256x128
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  slices_S100000x128_S100000x64_0_0 : S100000x128.Slices ![0, 0] S100000x64
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S100000x128_S100000x64_0_64 : S100000x128.Slices ![0, 64] S100000x64
  slices_S2x1600000_S1x1600000_1_0 : S2x1600000.Slices ![1, 0] S1x1600000
  concatenates_S1600000x64_S1600000x64_S3200000x64_d0 : Shape.Concatenates [S1600000x64, S1600000x64] S3200000x64 0
  concatenates_S1600000_S1600000_S3200000_d0 : Shape.Concatenates [S1600000, S1600000] S3200000 0
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  dot_S4000x256_S256x128_S4000x128_1_0_0_1_n_n_wf : DotDims.WF S4000x256 S256x128 S4000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x256x64 : Shape := ⟨3, ![2, 256, 64]⟩
abbrev S2x1600000 : Shape := ⟨2, ![2, 1600000]⟩
abbrev S_ : Shape := ⟨0, ![]⟩
abbrev S100000x64 : Shape := ⟨2, ![100000, 64]⟩
abbrev S1x256x64 : Shape := ⟨3, ![1, 256, 64]⟩
abbrev S256x64 : Shape := ⟨2, ![256, 64]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x256x64, .f32⟩
  | .hbm, ⟨2, _⟩ => ⟨S2x1600000, .f32⟩
  | .hbm, ⟨3, _⟩ => ⟨S2x1600000, .i32⟩
  | .hbm, ⟨4, _⟩ => ⟨S2x1600000, .i32⟩
  | .hbm, ⟨5, _⟩ => ⟨S_, .f32⟩
  | .hbm, ⟨6, _⟩ => ⟨S100000x64, .f32⟩
  | .hbm, ⟨7, _⟩ => ⟨S1x256x64, .f32⟩
  | .hbm, ⟨8, _⟩ => ⟨S256x64, .f32⟩
  | .hbm, ⟨9, _⟩ => ⟨S100000x64, .f32⟩
  | .hbm, ⟨10, _⟩ => ⟨S1x1600000, .f32⟩
  | .hbm, ⟨11, _⟩ => ⟨S1600000, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x1, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S1x256x64, .f32⟩
  | .hbm, ⟨34, _⟩ => ⟨S256x64, .f32⟩
  | .hbm, ⟨35, _⟩ => ⟨S100000x64, .f32⟩
  | .hbm, ⟨36, _⟩ => ⟨S1x1600000, .f32⟩
  | .hbm, ⟨37, _⟩ => ⟨S1600000, .f32⟩
  | .hbm, ⟨38, _⟩ => ⟨S1x1600000, .i32⟩
  | .hbm, ⟨39, _⟩ => ⟨S1600000, .i32⟩
  | .hbm, ⟨40, _⟩ => ⟨S1x1600000, .i32⟩
  | .hbm, ⟨41, _⟩ => ⟨S1600000, .i32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_cst : Ref sig .tc := ⟨.hbm, 59, rfl⟩
abbrev main_call0_v0 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  slices_S2x256x64_S1x256x64_0_0_0 : S2x256x64.Slices ![0, 0, 0] S1x256x64
  shapeCasts_S1x256x64_S256x64 : S1x256x64.ShapeCasts S256x64
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S2x256x64_S1x256x64_1_0_0 : S2x256x64.Slices ![1, 0, 0] S1x256x64
  slices_S2x1600000_S1x1600000_1_0 : S2x1600000.Slices ![1, 0] S1x1600000
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Product.lean ====
/-
  The body's one store, read at an index.

  The body loads a block of 4000 rows of x and the whole 256×128 weight matrix, multiplies them on the matrix
  unit into a zero accumulator and stores the product. Over the extended reals the changes of float format are
  the identity and the matrix product into zero is the plain sum, so entry (r, j) of what is stored is
  Σ_k x(r, k) · w(k, j), the factors in this order.
-/
import proofs.«130435_j72430328480132_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Product

open Cert.KernelIdeal Cert.KernelIdeal.Gen Idealize.ShloMosaic Idealize.ShloMosaic.ValueIdx

/-- The coordinates of the two operand entries a product term reads, axis by axis: the left operand's row is the
    output's row and its column the contraction position; the right operand's row is the contraction position
    and its column the output's column. -/
theorem lhs_row (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide),
    dif_pos (show (0 : Fin S4000x256.rank) ∈ dot_S4000x256_S256x128_S4000x128_1_0_0_1_n_n.lhsNonContracting by decide)]
  rfl
theorem lhs_col (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_row (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_col (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide),
    dif_pos (show (1 : Fin S256x128.rank) ∈ dot_S4000x256_S256x128_S4000x128_1_0_0_1_n_n.rhsNonContracting by decide)]
  rfl

/-- The left operand of the block product at output entry (r, j) and contraction position k is x's entry (r, k). -/
theorem lhs_at (r : Fin 4000) (j : Fin 128) (k : Fin 256) :
    dot_S4000x256_S256x128_S4000x128_1_0_0_1_n_n.lhsIdx (ix2 r j)
      ((contrEquiv1 dot_S4000x256_S256x128_S4000x128_1_0_0_1_n_n 256 rfl rfl).symm k) = ix2 r k := by
  have hk := contrEquiv1_symm_val dot_S4000x256_S256x128_S4000x128_1_0_0_1_n_n 256 rfl rfl k
  funext a
  refine Fin.ext ?_
  match a with
  | ⟨0, _⟩ => exact lhs_row _ _
  | ⟨1, _⟩ => exact (lhs_col _ _).trans hk

/-- The right operand there is the weight matrix's entry (k, j). -/
theorem rhs_at (r : Fin 4000) (j : Fin 128) (k : Fin 256) :
    dot_S4000x256_S256x128_S4000x128_1_0_0_1_n_n.rhsIdx (ix2 r j)
      ((contrEquiv1 dot_S4000x256_S256x128_S4000x128_1_0_0_1_n_n 256 rfl rfl).symm k) = ix2 k j := by
  have hk := contrEquiv1_symm_val dot_S4000x256_S256x128_S4000x128_1_0_0_1_n_n 256 rfl rfl k
  funext a
  refine Fin.ext ?_
  match a with
  | ⟨0, _⟩ => exact (rhs_row _ _).trans hk
  | ⟨1, _⟩ => exact rhs_col _ _

/-- Entry (r, j) of the stored block is the sum over k of x(r, k) · w(k, j). -/
theorem pay_apply (x0 : Vec Ideal S4000x256 .f32) (x1 : Vec Ideal S256x128 .f32) (r : Fin 4000) (j : Fin 128) :
    k0_pay1 (F := Ideal) x0 x1 (ix2 r j) = ∑ k : Fin 256, x0 (ix2 r k) * x1 (ix2 k j) := by
  unfold k0_pay1
  refine (Ideal.matmul_constant_zero_apply dot_S4000x256_S256x128_S4000x128_1_0_0_1_n_n none _ _ (ix2 r j)).trans ?_
  rw [← Equiv.sum_comp (contrEquiv1 dot_S4000x256_S256x128_S4000x128_1_0_0_1_n_n 256 rfl rfl).symm]
  refine Finset.sum_congr rfl fun k _ => ?_
  rw [lhs_at r j k, rhs_at r j k]
  show x0 (ix2 r k) * shapeCast S256x128 x1 shapeCasts_S256x128_S256x128 (ix2 k j) = _
  rw [shapeCast_self]

end Cert.KernelIdeal.Product

end
-- ==== Proof.Region.lean ====
/-
  The region's output array, as one function of the two arrays the region reads.

  The grid has 25 points. Point t loads rows 4000·t … 4000·t + 3999 of x and the whole 256×128 weight matrix,
  and writes the product of the two back as rows 4000·t … 4000·t + 3999 of the 100000×128 output. The 25 row
  blocks tile the output, so after the run the output is the product of the whole x with the weight matrix:
  entry (n, j) is Σ_k x(n, k) · w(k, j).
-/
import proofs.«130435_j72430328480132_2_alg».proof.Proof.Gen.KernelIdeal.Frame
import proofs.«130435_j72430328480132_2_alg».proof.Proof.Product
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

/-- The product of a 100000×256 array with a 256×128 matrix, entry by entry. -/
def prod (X : S100000x256.Idx → EReal) (Wm : S256x128.Idx → EReal) : S100000x128.Idx → EReal :=
  fun i => ∑ k : Fin 256, X (ix2 (i 0) k) * Wm (ix2 k (i 1))

/-- A block of 4000 rows of X starting at row 4000·tv, times the whole matrix, is the same rows of the product. -/
theorem block_eq (X : S100000x256.Idx → EReal) (Wm : S256x128.Idx → EReal)
    (x0 : Vec Ideal S4000x256 .f32) (x1 : Vec Ideal S256x128 .f32) (tv : Nat)
    (h0 : ∀ (r : Fin 4000) (k : Fin 256) (p : S100000x256.Idx), (p 0).val = tv * 4000 + r.val → (p 1).val = k.val →
      x0 (ix2 r k) = X p)
    (h1 : ∀ (k : Fin 256) (j : Fin 128), x1 (ix2 k j) = Wm (ix2 k j))
    (y : S4000x128.Idx) (i : S100000x128.Idx) (hi0 : (i 0).val = tv * 4000 + (y 0).val) (hi1 : (i 1).val = (y 1).val) :
    k0_pay1 (F := Ideal) x0 x1 y = prod X Wm i := by
  obtain ⟨r, j, rfl⟩ : ∃ (r : Fin 4000) (j : Fin 128), y = ix2 r j := ⟨y 0, y 1, eq_ix2 y⟩
  rw [Product.pay_apply]
  unfold prod
  refine Finset.sum_congr rfl fun k _ => ?_
  rw [h0 r k (ix2 (i 0) k) hi0 rfl, h1 k j]
  congr 2
  funext a
  refine Fin.ext ?_
  match a with
  | ⟨0, _⟩ => rfl
  | ⟨1, _⟩ => exact hi1.symm

variable (m : (ℓ : Loc nD τ sig) → Buf (Elt Ideal) ℓ)

theorem hz : (![0, 0] : Fin 2 → Nat) = fun _ => 0 := funext fun a => by fin_cases a <;> rfl

/-- The printed index maps over the grid: the x window and the output window sit at row block t, the weight
    window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed_eq (c : Dev nD) (t : Fin cfg0.N) :
    (dats m 0 c).flushed 2 t
      = ((cfg0.win 2).blk t).view.read (Elt Ideal) (prod (V m c main_arg0) (V m c main_v1)) := by
  show (cfg0.win 2).cut (grid0.coords t) ((dats m 0 c).after 2 t) = _
  rw [after0_2]
  unfold out0_2
  rw [View.canon_unit_zero hz]
  simp only [View.ld_unit_zero (S := S4000x256) hz, View.ld_unit_zero (S := S256x128) hz]
  obtain ⟨e0, e1, e2, e3, e4, e5⟩ := idx_facts t
  funext y
  rw [View.read_apply]
  refine block_eq (V m c main_arg0) (V m c main_v1) (iblk m c 0 t) (iblk m c 1 t) t.val ?_ ?_ y _ ?_ ?_
  · intro r k p hp0 hp1
    unfold iblk
    rw [View.read_apply]
    show V m c main_arg0 (((cfg0.win 0).blk t).view.emb (ix2 r k)) = V m c main_arg0 p
    congr 1
    funext a
    refine Fin.ext ?_
    match a with
    | ⟨0, _⟩ => show win0_0.index t (0 : Fin 2) * 4000 + 1 * r.val = (p 0).val; rw [e0, hp0]; omega
    | ⟨1, _⟩ => show win0_0.index t (1 : Fin 2) * 256 + 1 * k.val = (p 1).val; rw [e1, hp1]; omega
  · intro k j
    unfold iblk
    rw [View.read_apply]
    show V m c main_v1 (((cfg0.win 1).blk t).view.emb (ix2 k j)) = V m c main_v1 (ix2 k j)
    congr 1
    funext a
    refine Fin.ext ?_
    match a with
    | ⟨0, _⟩ => show win0_1.index t (0 : Fin 2) * 256 + 1 * k.val = k.val; rw [e2]; omega
    | ⟨1, _⟩ => show win0_1.index t (1 : Fin 2) * 128 + 1 * j.val = j.val; rw [e3]; omega
  · show win0_2.index t (0 : Fin 2) * 4000 + 1 * (y 0).val = t.val * 4000 + (y 0).val; rw [e4]; omega
  · show win0_2.index t (1 : Fin 2) * 128 + 1 * (y 1).val = (y 1).val; rw [e5]; omega

/-- An index of the output is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v2).slice (win0_2.rect t)).set ↔ _
  rw [View.set_slice_whole, Rect.mem_set_unit]
  exact Iff.rfl

/-- Every row of the output lies in the block of the point that is its row number divided by 4000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e0, e1, e2, e3, e4, e5⟩ := idx_facts t
  refine ⟨t, flush0_2 t, ?_⟩
  rw [mem_blk]
  intro a
  have ht : t.val = (i 0).val / 4000 := rfl
  match a with
  | ⟨0, _⟩ =>
    show win0_2.index t (0 : Fin 2) * 4000 ≤ (i 0).val ∧ (i 0).val < win0_2.index t (0 : Fin 2) * 4000 + 4000
    rw [e4, ht]; omega
  | ⟨1, _⟩ =>
    show win0_2.index t (1 : Fin 2) * 128 ≤ (i 1).val ∧ (i 1).val < win0_2.index t (1 : Fin 2) * 128 + 128
    rw [e5]; omega

/-- The output array after the run is the product of x with the weight matrix, as the region finds them. -/
theorem final (c : Dev nD) :
    (dats m 0 c).arrAt 2 cfg0.N = prod (V m c main_arg0) (V m c main_v1) :=
  (dats m 0 c).arrAt_eq_of_cover 2 (prod (V m c main_arg0) (V m c main_v1)) (fun t _ => flushed_eq m c t) cover

end Cert.KernelIdeal.Region

end
-- ==== Proof.KernelRun.lean ====
/-
  The kernel program's run, read: what its result array holds as one term of the argument arrays.

  Before the region the host lays the two supports' 256×64 weight matrices side by side as one 256×128 matrix
  (a transpose of W to [256, 2, 64], then a reshape). The region leaves the product of x with that matrix
  (Region.lean). After the region the host cuts the product's columns 0…63 and 64…127 apart again, and for each
  support s gathers rows of its half by the support's source indices (a negative index first moved up by
  100000), scales row e by the support's e-th edge value, lays the two supports' 1600000 message rows and
  destination indices one after the other, scatter-adds the 3200000 rows onto a zero 100000×64 table, and takes
  the maximum with zero.
-/
import proofs.«130435_j72430328480132_2_alg».proof.Proof.Region
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen

/-- The two supports' weight matrices side by side: entry (k, 64·s + d) is W(s, k, d). -/
def weights (Wt : FVec Ideal S2x256x64 .f32) : FVec Ideal S256x128 .f32 :=
  shapeCast S256x128 (transpose S256x2x64 [1, 0, 2] Wt transposes_S2x256x64_S256x2x64_1_0_2) shapeCasts_S256x2x64_S256x128

/-- One support's row of a [2, 1600000] array, as a vector. -/
def edgeRow {α : Type} (off : Fin 2 → Nat) (h : S2x1600000.Slices off S1x1600000) (a : S2x1600000.Idx → α) :
    S1600000.Idx → α :=
  shapeCast S1600000 (extractStridedSlice S1x1600000 off a h) shapeCasts_S1x1600000_S1600000

/-- A support's source indices as gather start indices: a negative index moved up by 100000, as a column. -/
def startIdx (srow : IVec S1600000 32) : IVec S1600000x1 32 :=
  broadcastInDim S1600000x1 ![0] bcast_S1600000_S1600000x1_0
    (select (cmpi .slt srow (broadcastInDim S1600000 ![] bcast_S_S1600000 (constantI S_ 32 0#32)))
      (addi srow (broadcastInDim S1600000 ![] bcast_S_S1600000 (constantI S_ 32 100000#32))) srow)

/-- A support's edge values laid along the 64 columns. -/
def scales (vrow : FVec Ideal S1600000 .f32) : FVec Ideal S1600000x64 .f32 :=
  broadcastInDim S1600000x64 ![0, 1] bcast_S1600000x1_S1600000x64_0_1
    (broadcastInDim S1600000x1 ![0] bcast_S1600000_S1600000x1_0 vrow)

/-- A support's messages: row e is the table's row at the e-th source index, times the e-th edge value. -/
def messages (table : FVec Ideal S100000x64 .bf16) (srow : IVec S1600000 32) (vrow : FVec Ideal S1600000 .f32) :
    FVec Ideal S1600000x64 .f32 :=
  mulf (extf .f32 (Host.gather gather_S100000x64_S1600000x1_S1600000x64_1_0_n_n_0_1_164 table (startIdx srow)) bitsLt_bf16_f32)
    (scales vrow)

/-- The zero 100000×64 table. -/
def zeros : FVec Ideal S100000x64 .f32 :=
  broadcastInDim S100000x64 ![] bcast_S_S100000x64 (constant (F := Ideal) S_ .f32 0x00000000#32)

/-- The last six host operations: both supports' destination indices and message rows laid one after the other
    and scatter-added onto the zero table. -/
def scat (M₀ M₁ : FVec Ideal S1600000x64 .f32) (d₀ d₁ : IVec S1600000 32) : FVec Ideal S100000x64 .f32 :=
  Host.scatterAdd scatter_S100000x64_S3200000x1_S3200000x64_1_0_0_1 zeros
    (broadcastInDim S3200000x1 ![0] bcast_S3200000_S3200000x1_0
      (concatenate S3200000 0 [⟨S1600000, d₀⟩, ⟨S1600000, d₁⟩] concatenates_S1600000_S1600000_S3200000_d0))
    (concatenate S3200000x64 0 [⟨S1600000x64, M₀⟩, ⟨S1600000x64, M₁⟩] concatenates_S1600000x64_S1600000x64_S3200000x64_d0)

/-- The scatter-add, then the maximum with zero. -/
def sumUp (M₀ M₁ : FVec Ideal S1600000x64 .f32) (d₀ d₁ : IVec S1600000 32) : FVec Ideal S100000x64 .f32 :=
  maximumf (scat M₀ M₁ d₀ d₁) zeros

/-- The host operations after the region, composed: from the region's output `P` and the three edge arrays. -/
def tail (P : FVec Ideal S100000x128 .bf16) (val : FVec Ideal S2x1600000 .f32) (src dst : IVec S2x1600000 32) :
    FVec Ideal S100000x64 .f32 :=
  sumUp
    (messages (extractStridedSlice S100000x64 ![0, 0] P slices_S100000x128_S100000x64_0_0)
      (edgeRow ![0, 0] slices_S2x1600000_S1x1600000_0_0 src) (edgeRow ![0, 0] slices_S2x1600000_S1x1600000_0_0 val))
    (messages (extractStridedSlice S100000x64 ![0, 64] P slices_S100000x128_S100000x64_0_64)
      (edgeRow ![1, 0] slices_S2x1600000_S1x1600000_1_0 src) (edgeRow ![1, 0] slices_S2x1600000_S1x1600000_1_0 val))
    (edgeRow ![0, 0] slices_S2x1600000_S1x1600000_0_0 dst)
    (edgeRow ![1, 0] slices_S2x1600000_S1x1600000_1_0 dst)

/-- Operations run one stretch after another are their concatenation run as one. -/
theorem after_append (l₁ l₂ : List (HloOp τ sig (Elt Ideal))) (Wv : Valuation τ sig (Elt Ideal)) :
    StableHlo.after (l₁ ++ l₂) Wv = StableHlo.after l₂ (StableHlo.after l₁ Wv) := by
  induction l₁ generalizing Wv with
  | nil => rfl
  | cons op l ih => exact ih _

/-- The first forty host operations after the region build, per support, the message rows and the destination
    indices; the last six lay them one after the other and scatter-add them. -/
abbrev opsMsgs : List (HloOp τ sig (Elt Ideal)) := (hostOps1 (F := Ideal)).take 40
abbrev opsSum : List (HloOp τ sig (Elt Ideal)) := (hostOps1 (F := Ideal)).drop 40

set_option maxHeartbeats 1000000 in
/-- Support 0's messages, from any buffer contents. -/
theorem msgs0 (Wv : Valuation τ sig (Elt Ideal)) :
    StableHlo.after opsMsgs Wv (Proc.devRef .tc main_v18)
      = messages (extractStridedSlice S100000x64 ![0, 0] (Wv (Proc.devRef .tc main_v2)) slices_S100000x128_S100000x64_0_0)
          (edgeRow ![0, 0] slices_S2x1600000_S1x1600000_0_0 (Wv (Proc.devRef .tc main_arg3)))
          (edgeRow ![0, 0] slices_S2x1600000_S1x1600000_0_0 (Wv (Proc.devRef .tc main_arg2))) := by
  simp only [opsMsgs, hostOps1, List.take_succ_cons, List.take_zero]
  after_results_simp
  rfl

set_option maxHeartbeats 1000000 in
/-- Support 1's messages. -/
theorem msgs1 (Wv : Valuation τ sig (Elt Ideal)) :
    StableHlo.after opsMsgs Wv (Proc.devRef .tc main_v36)
      = messages (extractStridedSlice S100000x64 ![0, 64] (Wv (Proc.devRef .tc main_v2)) slices_S100000x128_S100000x64_0_64)
          (edgeRow ![1, 0] slices_S2x1600000_S1x1600000_1_0 (Wv (Proc.devRef .tc main_arg3)))
          (edgeRow ![1, 0] slices_S2x1600000_S1x1600000_1_0 (Wv (Proc.devRef .tc main_arg2))) := by
  simp only [opsMsgs, hostOps1, List.take_succ_cons, List.take_zero]
  after_results_simp
  rfl

set_option maxHeartbeats 1000000 in
/-- Support 0's destination indices. -/
theorem dsts0 (Wv : Valuation τ sig (Elt Ideal)) :
    StableHlo.after opsMsgs Wv (Proc.devRef .tc main_v20)
      = edgeRow ![0, 0] slices_S2x1600000_S1x1600000_0_0 (Wv (Proc.devRef .tc main_arg4)) := by
  simp only [opsMsgs, hostOps1, List.take_succ_cons, List.take_zero]
  after_results_simp
  rfl

set_option maxHeartbeats 1000000 in
/-- Support 1's destination indices. -/
theorem dsts1 (Wv : Valuation τ sig (Elt Ideal)) :
    StableHlo.after opsMsgs Wv (Proc.devRef .tc main_v38)
      = edgeRow ![1, 0] slices_S2x1600000_S1x1600000_1_0 (Wv (Proc.devRef .tc main_arg4)) := by
  simp only [opsMsgs, hostOps1, List.take_succ_cons, List.take_zero]
  after_results_simp
  rfl

set_option maxHeartbeats 1000000 in
/-- The last six operations, from any buffer contents. -/
theorem scat_stage (Wv : Valuation τ sig (Elt Ideal)) :
    StableHlo.after opsSum Wv (Proc.devRef .tc main_v43)
      = scat (Wv (Proc.devRef .tc main_v18)) (Wv (Proc.devRef .tc main_v36)) (Wv (Proc.devRef .tc main_v20))
          (Wv (Proc.devRef .tc main_v38)) := by
  simp only [opsSum, hostOps1, List.drop_succ_cons, List.drop_zero]
  after_results_simp
  (rw [binary_result_ne]; rotate_left; decide)
  (rw [binary_result_ne]; rotate_left; decide)
  unfold scat zeros
  rfl

/-- The maximum with zero, from any buffer contents. -/
theorem relu_stage (Wv : Valuation τ sig (Elt Ideal)) :
    StableHlo.after hostOps1_1 Wv (Proc.devRef .tc main_v44) = maximumf (Wv (Proc.devRef .tc main_v43)) zeros := by
  simp only [hostOps1_1]
  after_results_simp
  rfl

/-- The host operations after the region, run from any buffer contents, leave the result buffer at `tail` of the
    region's output buffer and the three edge arrays' buffers. -/
theorem after_tail (Wv : Valuation τ sig (Elt Ideal)) :
    StableHlo.after (hostOps1 ++ hostOps1_1) Wv (Proc.devRef .tc main_v44)
      = tail (Wv (Proc.devRef .tc main_v2)) (Wv (Proc.devRef .tc main_arg2)) (Wv (Proc.devRef .tc main_arg3))
          (Wv (Proc.devRef .tc main_arg4)) := by
  have hsplit : (hostOps1 (F := Ideal)) ++ hostOps1_1 = (opsMsgs ++ opsSum) ++ hostOps1_1 := by
    rw [List.take_append_drop]
  rw [hsplit, after_append, after_append, relu_stage, scat_stage, msgs0, msgs1, dsts0, dsts1]
  rfl

variable (m : (ℓ : Loc nD τ sig) → Buf (Elt Ideal) ℓ) (ρ : Dev nD → PrngReg)

/-- The weight window's array, as the region finds it, is the two supports' matrices side by side. -/
theorem V_main_v1 (c : Dev nD) : V m c main_v1 = weights (m ((c : Thread nD τ).loc main_arg1)) := by
  show StableHlo.after hostOps0 (fun b => m (c, b)) (Proc.devRef .tc main_v1) = _
  after_results
  rfl

/-- The result buffer after the host operations that follow the region. -/
theorem tail_value (c : Dev nD) :
    Pipeline.afterTail₀ cfgs (dats m) 0 (V0 m) [hostOps1, hostOps1_1] c main_v44
      = tail (Region.prod (m ((c : Thread nD τ).loc main_arg0)) (weights (m ((c : Thread nD τ).loc main_arg1))))
          (m ((c : Thread nD τ).loc main_arg2)) (m ((c : Thread nD τ).loc main_arg3)) (m ((c : Thread nD τ).loc main_arg4)) := by
  unfold Pipeline.afterTail₀
  simp only [List.flatten_cons, List.flatten_nil, List.append_nil]
  rw [after_tail]
  have h2 : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  have ha2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have ha3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have ha4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  rw [h2, ha2, ha3, ha4, Region.final, V_main_arg0, V_main_v1]

/-- Every weakly fair execution of the kernel program terminates with the result array at `tail` of the product of
    x with the side-by-side weights and of the edge arrays, and the arguments unchanged. -/
theorem run : θ_run defs (onTc (τ := τ) (main (F := Ideal))) ⟨m, fun _ => 0, ρ⟩ fun r => ∀ c : Dev nD,
      r.2.mem ((c.tc : Thread nD τ).loc main_v44)
        = tail (Region.prod (m ((c : Thread nD τ).loc main_arg0)) (weights (m ((c : Thread nD τ).loc main_arg1))))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v44 (Pipeline.mem_restRefs_of main_v44 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.Tables.lean ====
/-
  The two gather tables agree.

  The kernel gathers message rows from the left and right halves (columns 0…63 and 64…127) of the product of x with
  the side-by-side weight matrix; the reference gathers them from x times support 0's and support 1's weight
  matrix. Entry (k, 64·s + d) of the side-by-side matrix is W(s, k, d), so entry (n, d) of half s of the product
  is Σ_k x(n, k) · W(s, k, d), which is entry (n, d) of x times support s's matrix: the same sum, term by term.
-/
import proofs.«130435_j72430328480132_2_alg».proof.Proof.KernelRun
import proofs.«130435_j72430328480132_2_alg».proof.Proof.Gen.ReferenceIdeal.Read
import Idealize.ShloMosaic.Lib.Pipeline.Value
import Idealize.ShloMosaic.Lib.ValueIdx

noncomputable section

open scoped BigOperators

open Idealize.ShloMosaic Idealize.ShloMosaic.ValueIdx

namespace Cert.KernelIdeal.Bridge

open Cert.KernelIdeal Cert.KernelIdeal.Gen

/-- Entry (k, 64·s + d) of the side-by-side weight matrix is W(s, k, d). -/
theorem weights_apply (Wt : FVec Ideal S2x256x64 .f32) (k : Fin 256) (s : Fin 2) (d : Fin 64) (j : Fin 128)
    (hj : j.val = 64 * s.val + d.val) : Tail.weights Wt (ix2 k j) = Wt (ix3 s k d) := by
  unfold Tail.weights
  refine (shapeCast_apply _ shapeCasts_S256x2x64_S256x128 (ix2 k j) (ix3 k s d) ?_).trans ?_
  · rw [Shape.rowMajor_val_three, Shape.rowMajor_val_two]
    show (k.val * 2 + s.val) * 64 + d.val = k.val * 128 + j.val
    omega
  · exact transpose_apply [1, 0, 2] Wt transposes_S2x256x64_S256x2x64_1_0_2 (ix3 k s d) (ix3 s k d) fun b =>
      match b with
      | ⟨0, _⟩ => rfl
      | ⟨1, _⟩ => rfl
      | ⟨2, _⟩ => rfl

/-- Entry (n, 64·s + d) of the product of x with the side-by-side matrix is Σ_k x(n, k) · W(s, k, d). -/
theorem prod_half (x0 : FVec Ideal S100000x256 .f32) (x1 : FVec Ideal S2x256x64 .f32) (s : Fin 2) (n : Fin 100000)
    (d : Fin 64) (j : Fin 128) (hj : j.val = 64 * s.val + d.val) :
    Region.prod x0 (Tail.weights x1) (ix2 n j) = ∑ k : Fin 256, x0 (ix2 n k) * x1 (ix3 s k d) := by
  unfold Region.prod
  refine Finset.sum_congr rfl fun k _ => ?_
  show x0 (ix2 n k) * Tail.weights x1 (ix2 k j) = _
  rw [weights_apply x1 k s d j hj]

/-- The left half of the product is x times support 0's weight matrix. -/
theorem table0 (x0 : FVec Ideal S100000x256 .f32) (x1 : FVec Ideal S2x256x64 .f32) :
    extractStridedSlice S100000x64 ![0, 0] (Region.prod x0 (Tail.weights x1)) slices_S100000x128_S100000x64_0_0
      = Cert.ReferenceIdeal.Read.val_main_v3 (F := Ideal) x0 x1 := by
  funext i
  obtain ⟨n, d, rfl⟩ : ∃ (n : Fin 100000) (d : Fin 64), i = ix2 n d := ⟨i 0, i 1, eq_ix2 i⟩
  have hd : d.val < 64 := d.isLt
  rw [Cert.ReferenceIdeal.Read.val_main_v3_apply]
  refine (extractStridedSlice_apply ![0, 0] _ slices_S100000x128_S100000x64_0_0 (ix2 n d)
    (ix2 n (⟨d.val, by omega⟩ : Fin 128)) (fun a => match a with
      | ⟨0, _⟩ => by show n.val = 0 + n.val; omega
      | ⟨1, _⟩ => by show d.val = 0 + d.val; omega)).trans ?_
  rw [prod_half x0 x1 0 n d ⟨d.val, by omega⟩ (by show d.val = 64 * 0 + d.val; omega)]
  refine Finset.sum_congr rfl fun k _ => ?_
  have hk : k.val < 256 := k.isLt
  rw [Cert.ReferenceIdeal.Read.val_main_v2_apply, Cert.ReferenceIdeal.Read.val_main_v1_apply]
  congr 2
  · funext a; refine Fin.ext ?_
    match a with
    | ⟨0, _⟩ => rfl
    | ⟨1, _⟩ => rfl
  · funext a; refine Fin.ext ?_
    match a with
    | ⟨0, _⟩ => rfl
    | ⟨1, _⟩ => show k.val = (k.val * 64 + d.val) / 64 % 256; omega
    | ⟨2, _⟩ => show d.val = (k.val * 64 + d.val) % 64; omega

/-- The right half of the product is x times support 1's weight matrix. -/
theorem table1 (x0 : FVec Ideal S100000x256 .f32) (x1 : FVec Ideal S2x256x64 .f32) :
    extractStridedSlice S100000x64 ![0, 64] (Region.prod x0 (Tail.weights x1)) slices_S100000x128_S100000x64_0_64
      = Cert.ReferenceIdeal.Read.val_main_v26 (F := Ideal) x0 x1 := by
  funext i
  obtain ⟨n, d, rfl⟩ : ∃ (n : Fin 100000) (d : Fin 64), i = ix2 n d := ⟨i 0, i 1, eq_ix2 i⟩
  have hd : d.val < 64 := d.isLt
  rw [Cert.ReferenceIdeal.Read.val_main_v26_apply]
  refine (extractStridedSlice_apply ![0, 64] _ slices_S100000x128_S100000x64_0_64 (ix2 n d)
    (ix2 n (⟨64 + d.val, by omega⟩ : Fin 128)) (fun a => match a with
      | ⟨0, _⟩ => by show n.val = 0 + n.val; omega
      | ⟨1, _⟩ => by show 64 + d.val = 64 + d.val; omega)).trans ?_
  rw [prod_half x0 x1 1 n d ⟨64 + d.val, by omega⟩ (by show 64 + d.val = 64 * 1 + d.val; omega)]
  refine Finset.sum_congr rfl fun k _ => ?_
  have hk : k.val < 256 := k.isLt
  rw [Cert.ReferenceIdeal.Read.val_main_v25_apply, Cert.ReferenceIdeal.Read.val_main_v24_apply]
  congr 2
  · funext a; refine Fin.ext ?_
    match a with
    | ⟨0, _⟩ => rfl
    | ⟨1, _⟩ => rfl
  · funext a; refine Fin.ext ?_
    match a with
    | ⟨0, _⟩ => rfl
    | ⟨1, _⟩ => show k.val = (k.val * 64 + d.val) / 64 % 256; omega
    | ⟨2, _⟩ => show d.val = (k.val * 64 + d.val) % 64; omega

end Cert.KernelIdeal.Bridge

end
-- ==== Proof.LibGatherRows.lean ====
/-
  Two shape operations of a table of rows, read at an index.

  A table has N rows of C columns. Gathering its rows at R start indices (one per result row, stored as an
  R×1 array of words) gives an R×C array whose row e is the table's row at the e-th start index, the index
  read as a signed integer and clamped into [0, N − 1]. Scatter-adding R update rows onto the table at R
  start indices adds to every table entry the update entries of the same column whose row's start index,
  read as a signed integer and NOT clamped, is the entry's row; an update row whose index is outside
  [0, N) lands nowhere.
-/
import Idealize.ShloMosaic.PureOps.Ideal
import Idealize.ShloMosaic.Lib.ValueIdx

noncomputable section

open scoped BigOperators

namespace Cert.GatherRows

open Idealize.ShloMosaic Idealize.ShloMosaic.ValueIdx

variable {α : Type}

/-! ## Gathering rows -/

/-- The dimension numbers of a row gather: operand N×C, start indices R×1 (the index vector on axis 1),
    result R×C; the operand's row axis is collapsed and indexed, the column axis is the one offset axis,
    a slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (e, c) of a row gather is the table's entry in column c of the row named by the e-th start index,
    read signed and clamped into [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowsDims N R C wf) x idx (ix2 e c)
      = x (ix2 ⟨min (idx (ix2 e 0)).toInt.toNat (N - 1), by omega⟩ c) := by
  unfold Host.gather
  congr 1
  funext a
  refine Fin.ext ?_
  show (rowsDims N R C wf).start (ix2 e c) idx a + (rowsDims N R C wf).batchCoord (ix2 e c) a
      + (rowsDims N R C wf).offCoord (ix2 e c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (rowsDims N R C wf).startIndexMap from List.mem_singleton.mpr rfl)]
    have hsi : (rowsDims N R C wf).siIdx (ix2 e c) ⟨List.idxOf (⟨0, by decide⟩ : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h01 : (1 : Fin 2) ∉ ([0] : List (Fin 2)) := by decide
    have hs : (rowsDims N R C wf).start (ix2 e c) idx (1 : Fin 2) = 0 := by
      unfold GatherDims.start; rw [dif_neg h01]
    have hk : (1 : Fin 2) ∈ (rowsDims N R C wf).sKept :=
      (GatherDims.mem_sKept _ _).mpr ⟨h01, List.not_mem_nil⟩
    have ho : (rowsDims N R C wf).offCoord (ix2 e c) (1 : Fin 2) = c.val := by
      unfold GatherDims.offCoord; rw [dif_pos hk]; rfl
    show (rowsDims N R C wf).start (ix2 e c) idx (1 : Fin 2) + 0 + (rowsDims N R C wf).offCoord (ix2 e c) (1 : Fin 2) = c.val
    rw [hs, ho]; omega

/-! ## Scatter-adding rows -/

/-- The dimension numbers of a row scatter: operand N×C, scatter indices R×1 (the index vector on axis 1),
    updates R×C; the operand's row axis is the inserted, indexed one, the column axis is the one window axis. -/
abbrev rowsScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Scatter

variable {N R C w : Nat} (wf : ScatterDims.WF ⟨2, ![N, C]⟩ ⟨2, ![R, 1]⟩ ⟨2, ![R, C]⟩ [1] [0] [0] 1)
  (idx : IVec ⟨2, ![R, 1]⟩ w) (e : Fin R) (c' : Fin C)

/-- On the row axis an update entry starts at its row's index word, read signed. -/
theorem rows_start_row :
    (rowsScatterDims N R C wf).start (ix2 e c') idx (0 : Fin 2) = (idx (ix2 e 0)).toInt := by
  unfold ScatterDims.start
  rw [dif_pos (show (0 : Fin 2) ∈ (rowsScatterDims N R C wf).scatterDimsToOperandDims from List.mem_singleton.mpr rfl)]
  congr 2
  funext b; refine Fin.ext ?_
  match b with
  | ⟨0, _⟩ => rfl
  | ⟨1, _⟩ => rfl

/-- On the column axis it starts at 0. -/
theorem rows_start_col : (rowsScatterDims N R C wf).start (ix2 e c') idx (1 : Fin 2) = 0 := by
  have h01 : (1 : Fin 2) ∉ ([0] : List (Fin 2)) := by decide
  unfold ScatterDims.start; rw [dif_neg h01]

/-- The row axis carries no window coordinate. -/
theorem rows_window_row : (rowsScatterDims N R C wf).window (ix2 e c') (0 : Fin 2) = 0 := by
  have h : (0 : Fin 2) ∉ (rowsScatterDims N R C wf).sKept := by
    simp [ScatterDims.sKept, Shape.kept]
  unfold ScatterDims.window; rw [dif_neg h]

/-- The column axis's window coordinate is the update entry's column. -/
theorem rows_window_col : (rowsScatterDims N R C wf).window (ix2 e c') (1 : Fin 2) = c'.val := by
  have h : (1 : Fin 2) ∈ (rowsScatterDims N R C wf).sKept := by
    simp [ScatterDims.sKept, Shape.kept]
  unfold ScatterDims.window; rw [dif_pos h]; rfl

/-- Update entry (e, c') lands on table entry (n, c) exactly when its row's index word, read signed, is n and
    the columns agree. -/
theorem resultIdx_rows_iff (n : Fin N) (c : Fin C) :
    (rowsScatterDims N R C wf).resultIdx? (ix2 e c') idx = some (ix2 n c)
      ↔ (idx (ix2 e 0)).toInt = (n.val : Int) ∧ c' = c := by
  have hs0 := rows_start_row wf idx e c'
  have hs1 := rows_start_col wf idx e c'
  have hw0 := rows_window_row (N := N) (R := R) wf e c'
  have hw1 := rows_window_col (N := N) (R := R) wf e c'
  unfold ScatterDims.resultIdx?
  split
  · rename_i h
    rw [Option.some.injEq]
    constructor
    · intro hf
      have h0 := congrArg (fun f : (⟨2, ![N, C]⟩ : Shape).Idx => (f (0 : Fin 2)).val) hf
      have h1 := congrArg (fun f : (⟨2, ![N, C]⟩ : Shape).Idx => (f (1 : Fin 2)).val) hf
      have hp := (h (0 : Fin 2)).1
      simp only [hs0, hs1, hw0, hw1] at h0 h1 hp
      refine ⟨?_, Fin.ext ?_⟩
      · show _ = ((ix2 n c (0 : Fin 2)).val : Int)
        rw [← h0]; omega
      · show _ = (ix2 n c (1 : Fin 2)).val
        rw [← h1]; omega
    · rintro ⟨h0, rfl⟩
      funext a; refine Fin.ext ?_
      match a with
      | ⟨0, _⟩ =>
        show ((rowsScatterDims N R C wf).start (ix2 e c') idx (0 : Fin 2) + ((rowsScatterDims N R C wf).window (ix2 e c') (0 : Fin 2) : Int)).toNat = n.val
        rw [hs0, hw0, h0]; omega
      | ⟨1, _⟩ =>
        show ((rowsScatterDims N R C wf).start (ix2 e c') idx (1 : Fin 2) + ((rowsScatterDims N R C wf).window (ix2 e c') (1 : Fin 2) : Int)).toNat = c'.val
        rw [hs1, hw1]; omega
  · rename_i h
    refine iff_of_false (fun hh => nomatch hh) ?_
    rintro ⟨h0, -⟩
    refine h fun a => ?_
    match a with
    | ⟨0, _⟩ =>
      show 0 ≤ (rowsScatterDims N R C wf).start (ix2 e c') idx (0 : Fin 2) + ((rowsScatterDims N R C wf).window (ix2 e c') (0 : Fin 2) : Int) ∧
        (rowsScatterDims N R C wf).start (ix2 e c') idx (0 : Fin 2) + ((rowsScatterDims N R C wf).window (ix2 e c') (0 : Fin 2) : Int) < (N : Int)
      rw [hs0, hw0, h0]; have := n.isLt; omega
    | ⟨1, _⟩ =>
      show 0 ≤ (rowsScatterDims N R C wf).start (ix2 e c') idx (1 : Fin 2) + ((rowsScatterDims N R C wf).window (ix2 e c') (1 : Fin 2) : Int) ∧
        (rowsScatterDims N R C wf).start (ix2 e c') idx (1 : Fin 2) + ((rowsScatterDims N R C wf).window (ix2 e c') (1 : Fin 2) : Int) < (C : Int)
      rw [hs1, hw1]; have := c'.isLt; omega

end Scatter

/-- Entry (n, c) of a row scatter-add is the table's entry plus the sum, over the update rows whose index
    word read as a signed integer is n, of the update's entry in column c. The sum is written over all
    update rows with the others contributing 0. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowsScatterDims N R C wf) x idx upd (ix2 n c)
      = x (ix2 n c) + ∑ e : Fin R, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx_rows_iff]
  by_cases hP : (idx (ix2 e 0)).toInt = (n.val : Int)
  · simp only [hP, true_and, if_true]
    rw [Finset.sum_ite_eq' Finset.univ c (fun c' => upd (ix2 e c'))]
    simp
  · simp [hP]

end Cert.GatherRows

end
-- ==== Proof.LibScatterConcat.lean ====
/-
  Scatter-adding a concatenated list of rows onto a zero table, read as the sum of the two parts' scatter-adds.

  A table has N rows of C columns and starts at zero. Two lists of update rows, E₀ and E₁ long, each row with a
  destination index word, are laid one after the other (R = E₀ + E₁ rows, R index words) and scatter-added in one
  pass: table entry (n, c) ends at the sum of the update entries in column c of all rows whose index word, read
  signed, is n. Splitting the sum over the R rows at E₀ gives the first list's sum plus the second's, which is
  what adding the two lists' own scatter-adds onto zero tables gives. Only the associativity and commutativity
  of addition and 0 + a = a are used, so this holds on the extended reals with no finiteness assumption.
-/
import proofs.«130435_j72430328480132_2_alg».proof.Proof.LibGatherRows
import Idealize.ShloMosaic.Lib.Pipeline.Value

noncomputable section

open scoped BigOperators

namespace Cert.ScatterConcat

open Idealize.ShloMosaic Idealize.ShloMosaic.ValueIdx Cert.GatherRows

variable {α : Type}

/-- A vector of R words laid out as an R×1 column reads, at (j, 0), the vector at j. -/
theorem column_apply {R : Nat} (h : (⟨1, ![R]⟩ : Shape).BroadcastsInDim ⟨2, ![R, 1]⟩ (![0] : Fin 1 → Fin 2))
    (d : (⟨1, ![R]⟩ : Shape).Idx → α) (j : Fin R) :
    broadcastInDim ⟨2, ![R, 1]⟩ ![0] h d (ix2 j (0 : Fin 1)) = d (ix1 j) := by
  refine broadcastInDim_apply _ h d (ix2 j (0 : Fin 1)) (ix1 j) fun a => ?_
  match a with
  | ⟨0, _⟩ =>
    show j.val = if R = 1 then 0 else j.val
    split
    · have := j.isLt; omega
    · rfl

/-- Two vectors laid one after the other: a position in the first part reads the first vector. -/
theorem concat_vec_left {E₀ E₁ : Nat} (d₀ : (⟨1, ![E₀]⟩ : Shape).Idx → α) (d₁ : (⟨1, ![E₁]⟩ : Shape).Idx → α)
    (h : Shape.Concatenates [⟨1, ![E₀]⟩, ⟨1, ![E₁]⟩] ⟨1, ![E₀ + E₁]⟩ (0 : Fin 1)) (e : Fin E₀) :
    concatenate ⟨1, ![E₀ + E₁]⟩ (0 : Fin 1) [⟨⟨1, ![E₀]⟩, d₀⟩, ⟨⟨1, ![E₁]⟩, d₁⟩] h (ix1 (Fin.castAdd E₁ e)) = d₀ (ix1 e) :=
  concatenate_pair_apply_left (0 : Fin 1) d₀ d₁ h (ix1 (Fin.castAdd E₁ e)) rfl (ix1 e) fun b => by
    match b with
    | ⟨0, _⟩ => rfl

/-- A position in the second part reads the second vector, the first part's length less. -/
theorem concat_vec_right {E₀ E₁ : Nat} (d₀ : (⟨1, ![E₀]⟩ : Shape).Idx → α) (d₁ : (⟨1, ![E₁]⟩ : Shape).Idx → α)
    (h : Shape.Concatenates [⟨1, ![E₀]⟩, ⟨1, ![E₁]⟩] ⟨1, ![E₀ + E₁]⟩ (0 : Fin 1)) (e : Fin E₁) :
    concatenate ⟨1, ![E₀ + E₁]⟩ (0 : Fin 1) [⟨⟨1, ![E₀]⟩, d₀⟩, ⟨⟨1, ![E₁]⟩, d₁⟩] h (ix1 (Fin.natAdd E₀ e)) = d₁ (ix1 e) :=
  concatenate_pair_apply_right (0 : Fin 1) d₀ d₁ h (ix1 (Fin.natAdd E₀ e)) rfl rfl (ix1 e)
    (fun b hb => by
      match b with
      | ⟨0, _⟩ => exact absurd rfl hb)
    (by show e.val + E₀ = E₀ + e.val; omega)

/-- Two lists of rows laid one after the other: a row of the first part reads the first list. -/
theorem concat_rows_left {E₀ E₁ C : Nat} (M₀ : (⟨2, ![E₀, C]⟩ : Shape).Idx → α) (M₁ : (⟨2, ![E₁, C]⟩ : Shape).Idx → α)
    (h : Shape.Concatenates [⟨2, ![E₀, C]⟩, ⟨2, ![E₁, C]⟩] ⟨2, ![E₀ + E₁, C]⟩ (0 : Fin 2)) (e : Fin E₀) (c : Fin C) :
    concatenate ⟨2, ![E₀ + E₁, C]⟩ (0 : Fin 2) [⟨⟨2, ![E₀, C]⟩, M₀⟩, ⟨⟨2, ![E₁, C]⟩, M₁⟩] h (ix2 (Fin.castAdd E₁ e) c)
      = M₀ (ix2 e c) :=
  concatenate_pair_apply_left (0 : Fin 2) M₀ M₁ h (ix2 (Fin.castAdd E₁ e) c) rfl (ix2 e c) fun b => by
    match b with
    | ⟨0, _⟩ => rfl
    | ⟨1, _⟩ => rfl

/-- A row of the second part reads the second list, the first part's length less. -/
theorem concat_rows_right {E₀ E₁ C : Nat} (M₀ : (⟨2, ![E₀, C]⟩ : Shape).Idx → α) (M₁ : (⟨2, ![E₁, C]⟩ : Shape).Idx → α)
    (h : Shape.Concatenates [⟨2, ![E₀, C]⟩, ⟨2, ![E₁, C]⟩] ⟨2, ![E₀ + E₁, C]⟩ (0 : Fin 2)) (e : Fin E₁) (c : Fin C) :
    concatenate ⟨2, ![E₀ + E₁, C]⟩ (0 : Fin 2) [⟨⟨2, ![E₀, C]⟩, M₀⟩, ⟨⟨2, ![E₁, C]⟩, M₁⟩] h (ix2 (Fin.natAdd E₀ e) c)
      = M₁ (ix2 e c) :=
  concatenate_pair_apply_right (0 : Fin 2) M₀ M₁ h (ix2 (Fin.natAdd E₀ e) c) rfl rfl (ix2 e c)
    (fun b hb => by
      match b with
      | ⟨0, _⟩ => exact absurd rfl hb
      | ⟨1, _⟩ => rfl)
    (by show e.val + E₀ = E₀ + e.val; omega)

/-- One scatter-add of the concatenated rows at the concatenated index words onto a zero table is the zero table
    plus the first list's scatter-add onto a zero table, plus the second list's. The total number of rows R is a
    parameter with R = E₀ + E₁, so that the lemma applies where R is written as one numeral. -/
theorem scatterAdd_concat_zero {N E₀ E₁ R C : Nat} (hR : R = E₀ + E₁)
    (wf : ScatterDims.WF ⟨2, ![N, C]⟩ ⟨2, ![R, 1]⟩ ⟨2, ![R, C]⟩ [1] [0] [0] 1)
    (wf₀ : ScatterDims.WF ⟨2, ![N, C]⟩ ⟨2, ![E₀, 1]⟩ ⟨2, ![E₀, C]⟩ [1] [0] [0] 1)
    (wf₁ : ScatterDims.WF ⟨2, ![N, C]⟩ ⟨2, ![E₁, 1]⟩ ⟨2, ![E₁, C]⟩ [1] [0] [0] 1)
    (hM : Shape.Concatenates [⟨2, ![E₀, C]⟩, ⟨2, ![E₁, C]⟩] ⟨2, ![R, C]⟩ (0 : Fin 2))
    (hD : Shape.Concatenates [⟨1, ![E₀]⟩, ⟨1, ![E₁]⟩] ⟨1, ![R]⟩ (0 : Fin 1))
    (hb : (⟨1, ![R]⟩ : Shape).BroadcastsInDim ⟨2, ![R, 1]⟩ (![0] : Fin 1 → Fin 2))
    (hb₀ : (⟨1, ![E₀]⟩ : Shape).BroadcastsInDim ⟨2, ![E₀, 1]⟩ (![0] : Fin 1 → Fin 2))
    (hb₁ : (⟨1, ![E₁]⟩ : Shape).BroadcastsInDim ⟨2, ![E₁, 1]⟩ (![0] : Fin 1 → Fin 2))
    (Z : FVec Ideal ⟨2, ![N, C]⟩ .f32) (hZ : ∀ i, Z i = 0)
    (d₀ : IVec ⟨1, ![E₀]⟩ 32) (d₁ : IVec ⟨1, ![E₁]⟩ 32)
    (M₀ : FVec Ideal ⟨2, ![E₀, C]⟩ .f32) (M₁ : FVec Ideal ⟨2, ![E₁, C]⟩ .f32) :
    Host.scatterAdd (F := Ideal) (rowsScatterDims N R C wf) Z
        (broadcastInDim ⟨2, ![R, 1]⟩ ![0] hb
          (concatenate ⟨1, ![R]⟩ (0 : Fin 1) [⟨⟨1, ![E₀]⟩, d₀⟩, ⟨⟨1, ![E₁]⟩, d₁⟩] hD))
        (concatenate ⟨2, ![R, C]⟩ (0 : Fin 2) [⟨⟨2, ![E₀, C]⟩, M₀⟩, ⟨⟨2, ![E₁, C]⟩, M₁⟩] hM)
      = addf (addf Z (Host.scatterAdd (F := Ideal) (rowsScatterDims N E₀ C wf₀) Z (broadcastInDim ⟨2, ![E₀, 1]⟩ ![0] hb₀ d₀) M₀))
          (Host.scatterAdd (F := Ideal) (rowsScatterDims N E₁ C wf₁) Z (broadcastInDim ⟨2, ![E₁, 1]⟩ ![0] hb₁ d₁) M₁) := by
  subst hR
  funext i
  obtain ⟨n, c, rfl⟩ : ∃ (n : Fin N) (c : Fin C), i = ix2 n c := ⟨i 0, i 1, eq_ix2 i⟩
  show Ideal.hostScatterAdd (rowsScatterDims N (E₀ + E₁) C wf) Z
        (broadcastInDim ⟨2, ![E₀ + E₁, 1]⟩ ![0] hb
          (concatenate ⟨1, ![E₀ + E₁]⟩ (0 : Fin 1) [⟨⟨1, ![E₀]⟩, d₀⟩, ⟨⟨1, ![E₁]⟩, d₁⟩] hD))
        (concatenate ⟨2, ![E₀ + E₁, C]⟩ (0 : Fin 2) [⟨⟨2, ![E₀, C]⟩, M₀⟩, ⟨⟨2, ![E₁, C]⟩, M₁⟩] hM) (ix2 n c)
      = (Z (ix2 n c) + Ideal.hostScatterAdd (rowsScatterDims N E₀ C wf₀) Z (broadcastInDim ⟨2, ![E₀, 1]⟩ ![0] hb₀ d₀) M₀ (ix2 n c))
          + Ideal.hostScatterAdd (rowsScatterDims N E₁ C wf₁) Z (broadcastInDim ⟨2, ![E₁, 1]⟩ ![0] hb₁ d₁) M₁ (ix2 n c)
  rw [scatterAdd_rows_apply, scatterAdd_rows_apply, scatterAdd_rows_apply, hZ]
  simp only [zero_add]
  refine (Fin.sum_univ_add _).trans ?_
  congr 1
  · refine Finset.sum_congr rfl fun e _ => ?_
    rw [column_apply, column_apply, concat_vec_left, concat_rows_left]
  · refine Finset.sum_congr rfl fun e _ => ?_
    rw [column_apply, column_apply, concat_vec_right, concat_rows_right]

end Cert.ScatterConcat

end
-- ==== Proof.Bridge.lean ====
/-
  The reference's result is the kernel's.

  Reference: for each support s, gather rows of x·W(s) by the support's source indices, scale row e by the
  e-th edge value, scatter-add the 1600000 rows onto a zero table by the support's destination indices; add
  support 0's table onto a zero table, add support 1's table, take the maximum with zero.
  Kernel: the same message rows (its gather tables are the same arrays, Tables.lean; widening a gathered
  half-precision row is the identity on the extended reals), the two supports' rows and destination indices
  laid one after the other, scatter-added in ONE pass onto a zero table; the maximum with zero.
  One pass over the concatenation is the two passes added (LibScatterConcat.lean): entry by entry both are
  the sum, over the edges of both supports whose destination is the entry's row, of the message entries.

  The two programs spell the same pieces over their own copies of the shapes and dimension records; the first
  section identifies each pair.
-/
import proofs.«130435_j72430328480132_2_alg».proof.Proof.Tables
import proofs.«130435_j72430328480132_2_alg».proof.Proof.LibScatterConcat

noncomputable section

open scoped BigOperators

open Idealize.ShloMosaic Idealize.ShloMosaic.ValueIdx

namespace Cert.KernelIdeal.Bridge

open Cert.KernelIdeal Cert.KernelIdeal.Gen

/-- The zero table is zero at every entry. -/
theorem zeros_apply (i : S100000x64.Idx) : Tail.zeros i = 0 :=
  (broadcastInDim_apply _ bcast_S_S100000x64 _ i ix0 (fun a => a.elim0)).trans Ideal.ofBits_zero_f32

/-- Widening a half-precision array is the identity on the extended reals. -/
theorem extf_id {s : Shape} (a : FVec Ideal s .bf16) (h : FTy.bits .bf16 < FTy.bits .f32) : extf .f32 a h = a := rfl

/-! ## The same pieces, as each program spells them -/

/-- The two programs' row-gather dimension records are one. -/
theorem gather_dims_eq : gather_S100000x64_S1600000x1_S1600000x64_1_0_n_n_0_1_164
    = Cert.ReferenceIdeal.gather_S100000x64_S1600000x1_S1600000x64_1_0_n_n_0_1_164 := rfl

/-- The kernel's scatter record is the row scatter of 3200000 rows onto 100000 rows of 64 columns. -/
theorem scatter_dims_all : scatter_S100000x64_S3200000x1_S3200000x64_1_0_0_1
    = Cert.GatherRows.rowsScatterDims 100000 3200000 64 scatter_S100000x64_S3200000x1_S3200000x64_1_0_0_1_wf := rfl

/-- The reference's is the row scatter of 1600000 rows. -/
theorem scatter_dims_one : Cert.ReferenceIdeal.scatter_S100000x64_S1600000x1_S1600000x64_1_0_0_1
    = Cert.GatherRows.rowsScatterDims 100000 1600000 64 Cert.ReferenceIdeal.Gen.scatter_S100000x64_S1600000x1_S1600000x64_1_0_0_1_wf := rfl

/-- Each support's gather start indices, edge values along the columns, and destination column. -/
theorem start0 (x3 : IVec S2x1600000 32) :
    Tail.startIdx (Tail.edgeRow ![0, 0] slices_S2x1600000_S1x1600000_0_0 x3) = Cert.ReferenceIdeal.Read.val_main_v15 (F := Ideal) x3 := rfl
theorem start1 (x3 : IVec S2x1600000 32) :
    Tail.startIdx (Tail.edgeRow ![1, 0] slices_S2x1600000_S1x1600000_1_0 x3) = Cert.ReferenceIdeal.Read.val_main_v38 (F := Ideal) x3 := rfl
theorem scales0 (x2 : FVec Ideal S2x1600000 .f32) :
    Tail.scales (Tail.edgeRow ![0, 0] slices_S2x1600000_S1x1600000_0_0 x2) = Cert.ReferenceIdeal.Read.val_main_v18 (F := Ideal) x2 := rfl
theorem scales1 (x2 : FVec Ideal S2x1600000 .f32) :
    Tail.scales (Tail.edgeRow ![1, 0] slices_S2x1600000_S1x1600000_1_0 x2) = Cert.ReferenceIdeal.Read.val_main_v41 (F := Ideal) x2 := rfl
theorem dest0 (x4 : IVec S2x1600000 32) :
    broadcastInDim S1600000x1 ![0] bcast_S1600000_S1600000x1_0 (Tail.edgeRow ![0, 0] slices_S2x1600000_S1x1600000_0_0 x4)
      = Cert.ReferenceIdeal.Read.val_main_v21 (F := Ideal) x4 := rfl
theorem dest1 (x4 : IVec S2x1600000 32) :
    broadcastInDim S1600000x1 ![0] bcast_S1600000_S1600000x1_0 (Tail.edgeRow ![1, 0] slices_S2x1600000_S1x1600000_1_0 x4)
      = Cert.ReferenceIdeal.Read.val_main_v44 (F := Ideal) x4 := rfl

/-- The reference's four zero tables are the kernel's. -/
theorem zeros_a : Cert.ReferenceIdeal.Read.val_main_v0 (F := Ideal) = Tail.zeros := rfl
theorem zeros_b : Cert.ReferenceIdeal.Read.val_main_v20 (F := Ideal) = Tail.zeros := rfl
theorem zeros_c : Cert.ReferenceIdeal.Read.val_main_v43 (F := Ideal) = Tail.zeros := rfl
theorem zeros_d : Cert.ReferenceIdeal.Read.val_main_call0_v0 (F := Ideal) = Tail.zeros := rfl

/-! ## The message rows -/

/-- Support 0's message rows are the reference's. -/
theorem messages0 (x0 : FVec Ideal S100000x256 .f32) (x1 : FVec Ideal S2x256x64 .f32) (x2 : FVec Ideal S2x1600000 .f32)
    (x3 : IVec S2x1600000 32) :
    Tail.messages (extractStridedSlice S100000x64 ![0, 0] (Region.prod x0 (Tail.weights x1)) slices_S100000x128_S100000x64_0_0)
        (Tail.edgeRow ![0, 0] slices_S2x1600000_S1x1600000_0_0 x3) (Tail.edgeRow ![0, 0] slices_S2x1600000_S1x1600000_0_0 x2)
      = Cert.ReferenceIdeal.Read.val_main_v19 (F := Ideal) x0 x1 x2 x3 := by
  unfold Tail.messages Cert.ReferenceIdeal.Read.val_main_v19 Cert.ReferenceIdeal.Read.val_main_v16
  rw [table0, extf_id, gather_dims_eq, start0, scales0]

/-- Support 1's message rows are the reference's. -/
theorem messages1 (x0 : FVec Ideal S100000x256 .f32) (x1 : FVec Ideal S2x256x64 .f32) (x2 : FVec Ideal S2x1600000 .f32)
    (x3 : IVec S2x1600000 32) :
    Tail.messages (extractStridedSlice S100000x64 ![0, 64] (Region.prod x0 (Tail.weights x1)) slices_S100000x128_S100000x64_0_64)
        (Tail.edgeRow ![1, 0] slices_S2x1600000_S1x1600000_1_0 x3) (Tail.edgeRow ![1, 0] slices_S2x1600000_S1x1600000_1_0 x2)
      = Cert.ReferenceIdeal.Read.val_main_v42 (F := Ideal) x0 x1 x2 x3 := by
  unfold Tail.messages Cert.ReferenceIdeal.Read.val_main_v42 Cert.ReferenceIdeal.Read.val_main_v39
  rw [table1, extf_id, gather_dims_eq, start1, scales1]

/-! ## The sum -/

/-- One scatter-add of both supports' rows laid one after the other is the reference's two scatter-adds, added
    onto a zero table one after the other. -/
theorem sum_eq (M₀ M₁ : FVec Ideal S1600000x64 .f32) (d₀ d₁ : IVec S1600000 32) :
    Host.scatterAdd scatter_S100000x64_S3200000x1_S3200000x64_1_0_0_1 Tail.zeros
        (broadcastInDim S3200000x1 ![0] bcast_S3200000_S3200000x1_0
          (concatenate S3200000 0 [⟨S1600000, d₀⟩, ⟨S1600000, d₁⟩] concatenates_S1600000_S1600000_S3200000_d0))
        (concatenate S3200000x64 0 [⟨S1600000x64, M₀⟩, ⟨S1600000x64, M₁⟩] concatenates_S1600000x64_S1600000x64_S3200000x64_d0)
      = addf (addf Tail.zeros
            (Host.scatterAdd Cert.ReferenceIdeal.scatter_S100000x64_S1600000x1_S1600000x64_1_0_0_1 Tail.zeros
              (broadcastInDim S1600000x1 ![0] bcast_S1600000_S1600000x1_0 d₀) M₀))
          (Host.scatterAdd Cert.ReferenceIdeal.scatter_S100000x64_S1600000x1_S1600000x64_1_0_0_1 Tail.zeros
            (broadcastInDim S1600000x1 ![0] bcast_S1600000_S1600000x1_0 d₁) M₁) := by
  rw [scatter_dims_all, scatter_dims_one]
  exact Cert.ScatterConcat.scatterAdd_concat_zero (N := 100000) (E₀ := 1600000) (E₁ := 1600000) (R := 3200000) (C := 64)
    (by norm_num) _ _ _
    concatenates_S1600000x64_S1600000x64_S3200000x64_d0 concatenates_S1600000_S1600000_S3200000_d0
    bcast_S3200000_S3200000x1_0 bcast_S1600000_S1600000x1_0 bcast_S1600000_S1600000x1_0
    Tail.zeros zeros_apply d₀ d₁ M₀ M₁

/-! ## The results -/

/-- The reference's result, as a function of the five arguments, is the kernel's. -/
theorem result_eq (x0 : FVec Ideal S100000x256 .f32) (x1 : FVec Ideal S2x256x64 .f32) (x2 : FVec Ideal S2x1600000 .f32)
    (x3 x4 : IVec S2x1600000 32) :
    Cert.ReferenceIdeal.Read.val_main_v47 (F := Ideal) x0 x1 x2 x3 x4
      = Tail.tail (Region.prod x0 (Tail.weights x1)) x2 x3 x4 := by
  unfold Tail.tail Tail.sumUp Tail.scat
  rw [messages0, messages1, sum_eq, dest0, dest1]
  unfold Cert.ReferenceIdeal.Read.val_main_v47 Cert.ReferenceIdeal.Read.val_main_v46 Cert.ReferenceIdeal.Read.val_main_v23 Cert.ReferenceIdeal.Read.val_main_v45 Cert.ReferenceIdeal.Read.val_main_v22
  rw [zeros_a, zeros_b, zeros_c, zeros_d]

end Cert.KernelIdeal.Bridge

end
-- ==== Proof.lean ====
/-
  A two-support graph convolution: relu( Σ_s A_s · (x · W_s) ), each A_s a sparse matrix given as 1600000 edges
  (value, source row, destination row), x of shape 100000×256, W_s of shape 256×64.

  The kernel computes x · [W_0 | W_1] (the two weight matrices side by side, 256×128) in one tiled matrix product of
  25 row blocks, then on the host gathers, for each support, rows of its half of the product by the edges' sources,
  scales them by the edge values, lays both supports' message rows and destinations one after the other and
  scatter-adds all 3200000 rows onto a zero table in one pass. The reference computes x · W_s per support, gathers
  and scales the same way, scatter-adds each support's rows onto its own zero table and adds the two tables onto a
  zero table. Both end with the maximum with zero.

  On the extended reals the two agree entry by entry: half s of x · [W_0 | W_1] is x · W_s (the same sum of the same
  products, Tables.lean), so the message rows are the same arrays; and a scatter-add of a concatenation onto zero is
  the sum of the parts' scatter-adds onto zero (LibScatterConcat.lean), which uses only that addition is
  associative and commutative and that 0 + a = a. No entry needs to be finite, so the precondition is not opened.
  Out-of-range or negative indices are treated by the same operations on both sides.

  The ideal pass rewrote nothing in the kernel, so the idealization claim is `True`.
-/
import proofs.«130435_j72430328480132_2_alg».proof.Defs
import proofs.«130435_j72430328480132_2_alg».proof.Proof.Gen.Kernel
import proofs.«130435_j72430328480132_2_alg».proof.Proof.Gen.Kernel.Frame
import proofs.«130435_j72430328480132_2_alg».proof.Proof.Gen.KernelIdeal
import proofs.«130435_j72430328480132_2_alg».proof.Proof.Gen.KernelIdeal.Frame
import proofs.«130435_j72430328480132_2_alg».proof.Proof.Gen.ReferenceIdeal
import proofs.«130435_j72430328480132_2_alg».proof.Proof.Gen.ReferenceIdeal.Run
import proofs.«130435_j72430328480132_2_alg».proof.Proof.Gen.ReferenceIdeal.Read
import proofs.«130435_j72430328480132_2_alg».proof.Proof.Gen.Pre_finite_inputs
import proofs.«130435_j72430328480132_2_alg».proof.Proof.KernelRun
import proofs.«130435_j72430328480132_2_alg».proof.Proof.Bridge

noncomputable section

namespace Cert.Proof

open Idealize.ShloMosaic Idealize.SL.Sem

/-- The kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the five arguments, the idealized kernel and the idealized reference end with the
    same 100000×64 result. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  exact (Cert.ReferenceIdeal.Read.val_main_v47_eq _ _ _ _ _).trans (Cert.KernelIdeal.Bridge.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
